-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x256x64 : Shape := ⟨4, ![16, 256, 256, 64]⟩
abbrev S64x256 : Shape := ⟨2, ![64, 256]⟩
abbrev S256 : Shape := ⟨1, ![256]⟩
abbrev S_ : Shape := ⟨0, ![]⟩

class Facts : Prop where
  bcast_S_S16x256x256x64 : S_.BroadcastsInDim S16x256x256x64 (![] : Fin 0 → Fin S16x256x256x64.rank)
  reducesTo_S16x256x256x64_S_d0_1_2_3 : S16x256x256x64.ReducesTo [0, 1, 2, 3] S_
  h_S_ : 0 < S_.numel
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256 .f32) (main_arg6 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S16x256x256x64 .f32) (main_arg1 : FVec F S64x256 .f32) (main_arg2 : FVec F S256 .f32) (main_arg3 : FVec F S256 .f32) (main_arg4 : FVec F S256 .f32) (main_arg5 : FVec F S256 .f32) (main_arg6 : FVec F S256 .f32) : IVec S_ 1 :=
  let main_v0 : FVec F S16x256x256x64 .f32 := Host.absf main_arg0
  let main_cst : FVec F S_ .f32 := constant S_ .f32 0x7F800000#32
  let main_v1 : FVec F S16x256x256x64 .f32 := broadcastInDim S16x256x256x64 ![] bcast_S_S16x256x256x64 main_cst
  let main_v2 : IVec S16x256x256x64 1 := cmpf .olt main_v0 main_v1
  let main_c : IVec S_ 1 := constantI S_ 1 1#1
  let main_v3 : IVec S_ 1 := (fun x v => Host.reduce IntOp.andi x v reducesTo_S16x256x256x64_S_d0_1_2_3 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S16x256x256x64 : Shape := ⟨4, ![16, 256, 256, 64]⟩
abbrev S64x256 : Shape := ⟨2, ![64, 256]⟩
abbrev S256 : Shape := ⟨1, ![256]⟩
abbrev S16x512x512x64 : Shape := ⟨4, ![16, 512, 512, 64]⟩
abbrev S1x16x256x64 : Shape := ⟨4, ![1, 16, 256, 64]⟩
abbrev S1x32x512x64 : Shape := ⟨4, ![1, 32, 512, 64]⟩
abbrev S16x256x64 : Shape := ⟨3, ![16, 256, 64]⟩
abbrev S4096x64 : Shape := ⟨2, ![4096, 64]⟩
abbrev S4096x256 : Shape := ⟨2, ![4096, 256]⟩
abbrev S1x256 : Shape := ⟨2, ![1, 256]⟩
abbrev S16x256x2x2x64 : Shape := ⟨5, ![16, 256, 2, 2, 64]⟩
abbrev S16x2x256x2x64 : Shape := ⟨5, ![16, 2, 256, 2, 64]⟩
abbrev S32x512x64 : Shape := ⟨3, ![32, 512, 64]⟩

abbrev nBuf : Space → Nat
  | .hbm => 8
  | .vmem => 10
  | .smem => 0
  | _ => 0

abbrev bufTy : (tb : Table) → Fin (tcTables nBuf tb) → BufTy
  | .hbm, ⟨0, _⟩ => ⟨S16x256x256x64, .f32⟩
  | .hbm, ⟨1, _⟩ => ⟨S64x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S16x512x512x64, .f32⟩
  | .local _ .vmem, ⟨0, _⟩ => ⟨S1x16x256x64, .f32⟩
  | .local _ .vmem, ⟨1, _⟩ => ⟨S1x16x256x64, .f32⟩
  | .local _ .vmem, ⟨2, _⟩ => ⟨S64x256, .f32⟩
  | .local _ .vmem, ⟨3, _⟩ => ⟨S256, .f32⟩
  | .local _ .vmem, ⟨4, _⟩ => ⟨S256, .f32⟩
  | .local _ .vmem, ⟨5, _⟩ => ⟨S256, .f32⟩
  | .local _ .vmem, ⟨6, _⟩ => ⟨S256, .f32⟩
  | .local _ .vmem, ⟨7, _⟩ => ⟨S256, .f32⟩
  | .local _ .vmem, ⟨8, _⟩ => ⟨S1x32x512x64, .f32⟩
  | .local _ .vmem, ⟨9, _⟩ => ⟨S1x32x512x64, .f32⟩
  | _, _ => ⟨S16x256x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x32x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S1x16x256x64_S1x16x256x64_0_0_0_0 : ∀ a, (![0, 0, 0, 0] : Fin 4 → Nat) a + S1x16x256x64.size a ≤ S1x16x256x64.size a
  h_S1x16x256x64 : 0 < S1x16x256x64.numel
  shapeCasts_S1x16x256x64_S16x256x64 : S1x16x256x64.ShapeCasts S16x256x64
  shapeCasts_S16x256x64_S4096x64 : S16x256x64.ShapeCasts S4096x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  shapeCasts_S4096x256_S16x256x2x2x64 : S4096x256.ShapeCasts S16x256x2x2x64
  transposes_S16x256x2x2x64_p0_2_1_3_4_S16x2x256x2x64 : S16x256x2x2x64.Transposes [0, 2, 1, 3, 4] S16x2x256x2x64
  shapeCasts_S16x2x256x2x64_S32x512x64 : S16x2x256x2x64.ShapeCasts S32x512x64
  inb_S1x32x512x64_S1x32x512x64_0_0_0_0 : ∀ a, (![0, 0, 0, 0] : Fin 4 → Nat) a + S1x32x512x64.size a ≤ S1x32x512x64.size a
  h_S1x32x512x64 : 0 < S1x32x512x64.numel
  shapeCasts_S1x32x512x64_S32x512x64 : S1x32x512x64.ShapeCasts S32x512x64
  shapeCasts_S32x512x64_S1x32x512x64 : S32x512x64.ShapeCasts S1x32x512x64
  dot_S4096x64_S64x256_S4096x256_1_0_0_1_n_n_wf : DotDims.WF S4096x64 S64x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x64.size a ≤ S16x256x256x64.size a
  hwx0_0 : ∀ i : grid0.Coords, EltTy.bits .f32 = 32 ∨ (Rect.block (s := S16x256x256x64) S1x16x256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x512x64.size a ≤ S16x512x512x64.size a
  hwx0_7 : ∀ i : grid0.Coords, EltTy.bits .f32 = 32 ∨ (Rect.block (s := S16x512x512x64) S1x32x512x64.size (cc0_transform_7 i) (hinb0_7 i)).WholeWords (EltTy.packing .f32)

variable [Facts₀]

def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf

abbrev win0_0 : Pipeline.Window sig grid0 :=
  Pipeline.Window.ofSpec (Memref.whole main_arg0) S1x16x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x32x512x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x256x256x64 : Shape := ⟨4, ![16, 256, 256, 64]⟩
abbrev S64x256 : Shape := ⟨2, ![64, 256]⟩
abbrev S256 : Shape := ⟨1, ![256]⟩
abbrev S16x256x256x256 : Shape := ⟨4, ![16, 256, 256, 256]⟩
abbrev S1x1x1x256 : Shape := ⟨4, ![1, 1, 1, 256]⟩
abbrev S_ : Shape := ⟨0, ![]⟩
abbrev S16x256x256x2x2x64 : Shape := ⟨6, ![16, 256, 256, 2, 2, 64]⟩
abbrev S16x256x2x256x2x64 : Shape := ⟨6, ![16, 256, 2, 256, 2, 64]⟩
abbrev S16x512x512x64 : Shape := ⟨4, ![16, 512, 512, 64]⟩

abbrev nBuf : Space → Nat
  | .hbm => 31
  | .vmem => 0
  | .smem => 0
  | _ => 0

abbrev bufTy : (tb : Table) → Fin (tcTables nBuf tb) → BufTy
  | .hbm, ⟨0, _⟩ => ⟨S16x256x256x64, .f32⟩
  | .hbm, ⟨1, _⟩ => ⟨S64x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S16x256x256x256, .f32⟩
  | .hbm, ⟨8, _⟩ => ⟨S1x1x1x256, .f32⟩
  | .hbm, ⟨9, _⟩ => ⟨S16x256x256x256, .f32⟩
  | .hbm, ⟨10, _⟩ => ⟨S16x256x256x256, .f32⟩
  | .hbm, ⟨11, _⟩ => ⟨S_, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S1x1x1x256, .f32⟩
  | .hbm, ⟨17, _⟩ => ⟨S16x256x256x256, .f32⟩
  | .hbm, ⟨18, _⟩ => ⟨S16x256x256x256, .f32⟩
  | .hbm, ⟨19, _⟩ => ⟨S1x1x1x256, .f32⟩
  | .hbm, ⟨20, _⟩ => ⟨S16x256x256x256, .f32⟩
  | .hbm, ⟨21, _⟩ => ⟨S16x256x256x256, .f32⟩
  | .hbm, ⟨22, _⟩ => ⟨S1x1x1x256, .f32⟩
  | .hbm, ⟨23, _⟩ => ⟨S16x256x256x256, .f32⟩
  | .hbm, ⟨24, _⟩ => ⟨S16x256x256x256, .f32⟩
  | .hbm, ⟨25, _⟩ => ⟨S_, .f32⟩
  | .hbm, ⟨26, _⟩ => ⟨S16x256x256x256, .f32⟩
  | .hbm, ⟨27, _⟩ => ⟨S16x256x256x256, .f32⟩
  | .hbm, ⟨28, _⟩ => ⟨S16x256x256x2x2x64, .f32⟩
  | .hbm, ⟨29, _⟩ => ⟨S16x256x2x256x2x64, .f32⟩
  | .hbm, ⟨30, _⟩ => ⟨S16x512x512x64, .f32⟩
  | _, _ => ⟨S16x256x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S256_S1x1x1x256_3 : S256.BroadcastsInDim S1x1x1x256 (![3] : Fin 1 → Fin S1x1x1x256.rank)
  bcast_S1x1x1x256_S16x256x256x256_0_1_2_3 : S1x1x1x256.BroadcastsInDim S16x256x256x256 (![0, 1, 2, 3] : Fin 4 → Fin S16x256x256x256.rank)
  bcast_S_S256 : S_.BroadcastsInDim S256 (![] : Fin 0 → Fin S256.rank)
  bcast_S_S16x256x256x256 : S_.BroadcastsInDim S16x256x256x256 (![] : Fin 0 → Fin S16x256x256x256.rank)
  shapeCasts_S16x256x256x256_S16x256x256x2x2x64 : S16x256x256x256.ShapeCasts S16x256x256x2x2x64
  transposes_S16x256x256x2x2x64_S16x256x2x256x2x64_0_1_3_2_4_5 : S16x256x256x2x2x64.Transposes [0, 1, 3, 2, 4, 5] S16x256x2x256x2x64
  shapeCasts_S16x256x2x256x2x64_S16x512x512x64 : S16x256x2x256x2x64.ShapeCasts S16x512x512x64
  dot_S16x256x256x64_S64x256_S16x256x256x256_3_0_012_1_n_n_wf : DotDims.WF S16x256x256x64 S64x256 S16x256x256x256 [3] [0] [0, 1, 2] [1] [] []

variable [Facts₀]

def dot_S16x256x256x64_S64x256_S16x256x256x256_3_0_012_1_n_n : DotDims S16x256x256x64 S64x256 S16x256x256x256 where
  lhsContracting := [3]
  rhsContracting := [0]
  lhsNonContracting := [0, 1, 2]
  rhsNonContracting := [1]
  lhsBatch := []
  rhsBatch := []
  wf := dot_S16x256x256x64_S64x256_S16x256x256x256_3_0_012_1_n_n_wf

class Facts : Prop extends Facts₀ where

variable [Facts]
-- ==== Proof.Spec.lean ====
/-
  The function both programs compute, written once.

  A 1×1 convolution sends the 64 input channels of every pixel to 256 channels (a matrix product with the
  weight), adds a bias, normalises with fixed statistics — subtract the mean, multiply by
  gamma · (variance + ε)^(-1/2), add beta —, clamps below at zero, and then spreads the 256 channels of pixel
  (h, w) over the 2 × 2 patch of output pixels (2h + r₁, 2w + r₂), 64 channels each: output channel `co` of
  sub-pixel (r₁, r₂) is channel r₁ · 128 + r₂ · 64 + co of the convolution (`chan`).
  `pix` is the value at one pixel and one convolution channel as a function of that pixel's 64 inputs;
  `G` is the whole result array, index by index. Every operation is the extended reals' own, in the one
  order both programs use, so no law of arithmetic is needed to compare them.
-/
import Idealize.ShloMosaic.PureOps.Ideal
import Idealize.ShloMosaic.Lib.ValueIdx

noncomputable section

namespace Cert.Shuffle

open Idealize.ShloMosaic Idealize.ShloMosaic.ValueIdx

/-- The convolution channel that lands at sub-pixel `(r1, r2)`, output channel `co`. -/
def chan (r1 r2 : Fin 2) (co : Fin 64) : Fin 256 :=
  ⟨r1.val * 128 + r2.val * 64 + co.val, by have := r1.isLt; have := r2.isLt; have := co.isLt; omega⟩

theorem chan_val (r1 r2 : Fin 2) (co : Fin 64) : (chan r1 r2 co).val = r1.val * 128 + r2.val * 64 + co.val := rfl

/-- One pixel, one convolution channel `o`: the 64 inputs `xs` against column `o` of the weight, plus the bias,
    normalised, clamped at zero. -/
def pix (xs : Fin 64 → EReal) (wt : FVec Ideal ⟨2, ![64, 256]⟩ .f32) (b g be mu va : FVec Ideal ⟨1, ![256]⟩ .f32)
    (o : Fin 256) : EReal :=
  max ((((∑ k : Fin 64, xs k * wt (ix2 k o)) + b (ix1 o)) - mu (ix1 o))
        * (g (ix1 o) * Ideal.rsqrt (va (ix1 o) + Ideal.ofBits .f32 0x3A83126F#32)) + be (ix1 o))
    (Ideal.ofBits .f32 0x00000000#32)

/-- The input pixel row (or column) an output row (or column) comes from. -/
def half (a : Fin 512) : Fin 256 := ⟨a.val / 2, by have := a.isLt; omega⟩

/-- Which of the two sub-pixel rows (or columns) an output row (or column) is. -/
def par (a : Fin 512) : Fin 2 := ⟨a.val % 2, by omega⟩

theorem half_par (a : Fin 512) : a.val = 2 * (half a).val + (par a).val := by
  show a.val = 2 * (a.val / 2) + a.val % 2
  omega

/-- The result array: output pixel `(i 1, i 2)` of image `i 0`, channel `i 3`. -/
def G (x : FVec Ideal ⟨4, ![16, 256, 256, 64]⟩ .f32) (wt : FVec Ideal ⟨2, ![64, 256]⟩ .f32)
    (b g be mu va : FVec Ideal ⟨1, ![256]⟩ .f32) : FVec Ideal ⟨4, ![16, 512, 512, 64]⟩ .f32 := fun i =>
  pix (fun k => x (ix4 (i 0) (half (i 1)) (half (i 2)) k)) wt b g be mu va (chan (par (i 1)) (par (i 2)) (i 3))

end Cert.Shuffle

end
-- ==== Proof.Layout.lean ====
/-
  The three re-arrangements the programs make, each read at an index.

  A reshape keeps an element's position in row-major order, and a transpose permutes coordinates; so each chain
  below reads its operand at one index, found by writing both row-major positions as sums.
  • `rows_apply`: the kernel flattens its [1, 16, 256, 64] block of pixels to a [4096, 64] matrix: row
    h · 256 + w is pixel (h, w).
  • `patch_apply`: the kernel takes the [4096, 256] matrix of activations to the [1, 32, 512, 64] block of
    output pixels: output pixel (2h + r₁, 2w + r₂), channel co, is row h · 256 + w, column r₁ · 128 + r₂ · 64 + co.
  • `depth_to_space_apply`: the same for the reference's whole [16, 256, 256, 256] array, through rank 6.
-/
import Idealize.ShloMosaic.Lib.Pipeline.Value
import Idealize.ShloMosaic.Lib.ValueIdx
import Idealize.ShloMosaic.Lib.ValueIdxRank6
import proofs.«127152_j15642270892756_1_alg».proof.Proof.Spec

namespace Cert.Shuffle

open Idealize.ShloMosaic Idealize.ShloMosaic.ValueIdx

variable {α : Type}

/-- Row `h · 256 + w` of the flattened block is pixel `(h, w)` of the block. -/
theorem rows_apply (v : (⟨4, ![1, 16, 256, 64]⟩ : Shape).Idx → α)
    (h1 : (⟨4, ![1, 16, 256, 64]⟩ : Shape).ShapeCasts ⟨3, ![16, 256, 64]⟩)
    (h2 : (⟨3, ![16, 256, 64]⟩ : Shape).ShapeCasts ⟨2, ![4096, 64]⟩)
    (h : Fin 16) (w : Fin 256) (hp : h.val * 256 + w.val < 4096) (k : Fin 64) :
    shapeCast ⟨2, ![4096, 64]⟩ (shapeCast ⟨3, ![16, 256, 64]⟩ v h1) h2 (ix2 (⟨h.val * 256 + w.val, hp⟩ : Fin 4096) k)
      = v (ix4 (0 : Fin 1) h w k) := by
  refine (shapeCast_apply _ _ _ (ix3 h w k) (by
    refine (Shape.rowMajor_val_three _).trans (Eq.trans ?_ (Shape.rowMajor_val_two _).symm)
    show (h.val * 256 + w.val) * 64 + k.val = (h.val * 256 + w.val) * 64 + k.val
    rfl)).trans ?_
  exact shapeCast_apply _ _ _ (ix4 (0 : Fin 1) h w k) (by
    refine (Shape.rowMajor_val_four _).trans (Eq.trans ?_ (Shape.rowMajor_val_three _).symm)
    show ((0 * 16 + h.val) * 256 + w.val) * 64 + k.val = (h.val * 256 + w.val) * 64 + k.val
    omega)

/-- Output pixel `(2h + r1, 2w + r2)` of the block, channel `y 3`, is activation row `h · 256 + w`, column
    `chan r1 r2 (y 3)`. -/
theorem patch_apply (v : (⟨2, ![4096, 256]⟩ : Shape).Idx → α)
    (h1 : (⟨2, ![4096, 256]⟩ : Shape).ShapeCasts ⟨5, ![16, 256, 2, 2, 64]⟩)
    (h2 : (⟨5, ![16, 256, 2, 2, 64]⟩ : Shape).Transposes [0, 2, 1, 3, 4] ⟨5, ![16, 2, 256, 2, 64]⟩)
    (h3 : (⟨5, ![16, 2, 256, 2, 64]⟩ : Shape).ShapeCasts ⟨3, ![32, 512, 64]⟩)
    (h4 : (⟨3, ![32, 512, 64]⟩ : Shape).ShapeCasts ⟨4, ![1, 32, 512, 64]⟩)
    (y : (⟨4, ![1, 32, 512, 64]⟩ : Shape).Idx) (h : Fin 16) (w : Fin 256) (r1 r2 : Fin 2)
    (hh : (y 1).val = 2 * h.val + r1.val) (hw : (y 2).val = 2 * w.val + r2.val) :
    shapeCast ⟨4, ![1, 32, 512, 64]⟩ (shapeCast ⟨3, ![32, 512, 64]⟩
        (transpose ⟨5, ![16, 2, 256, 2, 64]⟩ [0, 2, 1, 3, 4] (shapeCast ⟨5, ![16, 256, 2, 2, 64]⟩ v h1) h2) h3) h4 y
      = v (ix2 (⟨h.val * 256 + w.val, by have := h.isLt; have := w.isLt; omega⟩ : Fin 4096) (chan r1 r2 (y 3))) := by
  have h0 : (y 0).val < 1 := (y 0).isLt
  refine (shapeCast_apply _ _ y (ix3 (y 1 : Fin 32) (y 2 : Fin 512) (y 3 : Fin 64)) (by
    refine (Shape.rowMajor_val_three _).trans (Eq.trans ?_ (Shape.rowMajor_val_four _).symm)
    show ((y 1).val * 512 + (y 2).val) * 64 + (y 3).val = (((y 0).val * 32 + (y 1).val) * 512 + (y 2).val) * 64 + (y 3).val
    omega)).trans ?_
  refine (shapeCast_apply _ _ _ (ix5 h r1 w r2 (y 3 : Fin 64)) (by
    refine (Shape.rowMajor_val_five _).trans (Eq.trans ?_ (Shape.rowMajor_val_three _).symm)
    show (((h.val * 2 + r1.val) * 256 + w.val) * 2 + r2.val) * 64 + (y 3).val = ((y 1).val * 512 + (y 2).val) * 64 + (y 3).val
    omega)).trans ?_
  refine (transpose_apply _ _ _ _ (ix5 h w r1 r2 (y 3 : Fin 64)) (fun b => match b with
    | ⟨0, _⟩ => rfl | ⟨1, _⟩ => rfl | ⟨2, _⟩ => rfl | ⟨3, _⟩ => rfl | ⟨4, _⟩ => rfl)).trans ?_
  exact shapeCast_apply _ _ _ (ix2 (⟨h.val * 256 + w.val, by have := h.isLt; have := w.isLt; omega⟩ : Fin 4096) (chan r1 r2 (y 3))) (by
    refine (Shape.rowMajor_val_two _).trans (Eq.trans ?_ (Shape.rowMajor_val_five _).symm)
    show (h.val * 256 + w.val) * 256 + (r1.val * 128 + r2.val * 64 + (y 3).val)
      = (((h.val * 256 + w.val) * 2 + r1.val) * 2 + r2.val) * 64 + (y 3).val
    omega)

/-- Output pixel `(2h + r1, 2w + r2)` of image `i 0`, channel `i 3`, is activation `(i 0, h, w, chan r1 r2 (i 3))`. -/
theorem depth_to_space_apply (v : (⟨4, ![16, 256, 256, 256]⟩ : Shape).Idx → α)
    (h1 : (⟨4, ![16, 256, 256, 256]⟩ : Shape).ShapeCasts ⟨6, ![16, 256, 256, 2, 2, 64]⟩)
    (h2 : (⟨6, ![16, 256, 256, 2, 2, 64]⟩ : Shape).Transposes [0, 1, 3, 2, 4, 5] ⟨6, ![16, 256, 2, 256, 2, 64]⟩)
    (h3 : (⟨6, ![16, 256, 2, 256, 2, 64]⟩ : Shape).ShapeCasts ⟨4, ![16, 512, 512, 64]⟩)
    (i : (⟨4, ![16, 512, 512, 64]⟩ : Shape).Idx) (h w : Fin 256) (r1 r2 : Fin 2)
    (hh : (i 1).val = 2 * h.val + r1.val) (hw : (i 2).val = 2 * w.val + r2.val) :
    shapeCast ⟨4, ![16, 512, 512, 64]⟩
        (transpose ⟨6, ![16, 256, 2, 256, 2, 64]⟩ [0, 1, 3, 2, 4, 5] (shapeCast ⟨6, ![16, 256, 256, 2, 2, 64]⟩ v h1) h2) h3 i
      = v (ix4 (i 0) h w (chan r1 r2 (i 3))) := by
  refine (shapeCast_apply _ _ i (ix6 (i 0 : Fin 16) h r1 w r2 (i 3 : Fin 64)) (by
    refine (Shape.rowMajor_val_six _).trans (Eq.trans ?_ (Shape.rowMajor_val_four _).symm)
    show (((((i 0).val * 256 + h.val) * 2 + r1.val) * 256 + w.val) * 2 + r2.val) * 64 + (i 3).val
      = (((i 0).val * 512 + (i 1).val) * 512 + (i 2).val) * 64 + (i 3).val
    omega)).trans ?_
  refine (transpose_apply _ _ _ _ (ix6 (i 0 : Fin 16) h w r1 r2 (i 3 : Fin 64)) (fun b => match b with
    | ⟨0, _⟩ => rfl | ⟨1, _⟩ => rfl | ⟨2, _⟩ => rfl | ⟨3, _⟩ => rfl | ⟨4, _⟩ => rfl | ⟨5, _⟩ => rfl)).trans ?_
  exact shapeCast_apply _ _ _ (ix4 (i 0 : Fin 16) h w (chan r1 r2 (i 3))) (by
    refine (Shape.rowMajor_val_four _).trans (Eq.trans ?_ (Shape.rowMajor_val_six _).symm)
    show (((i 0).val * 256 + h.val) * 256 + w.val) * 256 + (r1.val * 128 + r2.val * 64 + (i 3).val)
      = (((((i 0).val * 256 + h.val) * 256 + w.val) * 2 + r1.val) * 2 + r2.val) * 64 + (i 3).val
    omega)

end Cert.Shuffle
-- ==== Proof.BodyPixel.lean ====
/-
  What the kernel's body stores, read at one index of its output block.

  The body multiplies the [4096, 64] matrix of its block's pixels by the [64, 256] weight, adds the bias row,
  normalises with the per-channel vectors (each reshaped to a row and broadcast down the 4096 rows), clamps at
  zero, and re-arranges the [4096, 256] result into the [1, 32, 512, 64] block of output pixels. Read at output
  pixel (2h + r₁, 2w + r₂), channel co, that is `pix` of block pixel (h, w) at convolution channel
  r₁ · 128 + r₂ · 64 + co: the matrix product at a row and a column is the sum over the 64 shared positions, the
  narrowing of the operands is the identity on extended reals, and everything else acts entry by entry.
-/
import proofs.«127152_j15642270892756_1_alg».proof.Proof.Gen.KernelIdeal.Skeleton
import proofs.«127152_j15642270892756_1_alg».proof.Proof.Spec
import proofs.«127152_j15642270892756_1_alg».proof.Proof.Layout
import Idealize.ShloMosaic.Lib.ValueIdx
import Idealize.ShloMosaic.Lib.ValueLayout
import Idealize.ShloMosaic.PureOps.Ideal.Laws

noncomputable section

namespace Cert.Shuffle.Body

open Cert.KernelIdeal Cert.KernelIdeal.Gen
open Idealize.ShloMosaic Idealize.ShloMosaic.ValueIdx Cert.Shuffle

/-! ## The matrix product at a row and a column -/

theorem lhs_row (i : S4096x256.Idx) (q : dot_S4096x64_S64x256_S4096x256_1_0_0_1_n_n.contr.Idx) : (dot_S4096x64_S64x256_S4096x256_1_0_0_1_n_n.lhsIdx i q 0).val = (i 0).val := by
  unfold DotDims.lhsIdx
  rw [dif_neg (show ¬(0 : Fin S4096x64.rank) ∈ dot_S4096x64_S64x256_S4096x256_1_0_0_1_n_n.lhsBatch by decide), dif_pos (show (0 : Fin S4096x64.rank) ∈ dot_S4096x64_S64x256_S4096x256_1_0_0_1_n_n.lhsNonContracting by decide)]
  rfl

theorem lhs_pos (i : S4096x256.Idx) (q : dot_S4096x64_S64x256_S4096x256_1_0_0_1_n_n.contr.Idx) : (dot_S4096x64_S64x256_S4096x256_1_0_0_1_n_n.lhsIdx i q 1).val = (q ⟨0, by decide⟩).val :=
  dot_S4096x64_S64x256_S4096x256_1_0_0_1_n_n.lhsIdx_val_of_single rfl i q

theorem rhs_pos (i : S4096x256.Idx) (q : dot_S4096x64_S64x256_S4096x256_1_0_0_1_n_n.contr.Idx) : (dot_S4096x64_S64x256_S4096x256_1_0_0_1_n_n.rhsIdx i q 0).val = (q ⟨0, by decide⟩).val :=
  dot_S4096x64_S64x256_S4096x256_1_0_0_1_n_n.rhsIdx_val_of_single rfl i q

theorem rhs_col (i : S4096x256.Idx) (q : dot_S4096x64_S64x256_S4096x256_1_0_0_1_n_n.contr.Idx) : (dot_S4096x64_S64x256_S4096x256_1_0_0_1_n_n.rhsIdx i q 1).val = (i 1).val := by
  unfold DotDims.rhsIdx
  rw [dif_neg (show ¬(1 : Fin S64x256.rank) ∈ dot_S4096x64_S64x256_S4096x256_1_0_0_1_n_n.rhsBatch by decide), dif_pos (show (1 : Fin S64x256.rank) ∈ dot_S4096x64_S64x256_S4096x256_1_0_0_1_n_n.rhsNonContracting by decide)]
  rfl

/-- Entry `(p, o)` of the product into a zero accumulator is the sum over the 64 shared positions. -/
theorem mm_apply {φ₁ φ₂ : FTy} (a : FVec Ideal S4096x64 φ₁) (b : FVec Ideal S64x256 φ₂) (p : Fin 4096) (o : Fin 256) :
    matmul dot_S4096x64_S64x256_S4096x256_1_0_0_1_n_n none a b (constant S4096x256 .f32 0x00000000#32) (ix2 p o)
      = ∑ k : Fin 64, a (ix2 p k) * b (ix2 k o) := by
  show FloatOps.matmul dot_S4096x64_S64x256_S4096x256_1_0_0_1_n_n none a b (constant S4096x256 .f32 0x00000000#32) (ix2 p o) = _
  rw [Ideal.matmul_constant_zero_apply, ← Equiv.sum_comp (contrEquiv1 dot_S4096x64_S64x256_S4096x256_1_0_0_1_n_n 64 rfl rfl).symm]
  refine Finset.sum_congr rfl fun k _ => ?_
  have hk := contrEquiv1_symm_val dot_S4096x64_S64x256_S4096x256_1_0_0_1_n_n 64 rfl rfl k
  have el : dot_S4096x64_S64x256_S4096x256_1_0_0_1_n_n.lhsIdx (ix2 p o) ((contrEquiv1 dot_S4096x64_S64x256_S4096x256_1_0_0_1_n_n 64 rfl rfl).symm k) = ix2 p k := funext fun a => Fin.ext (by
    match a with
    | ⟨0, _⟩ => exact lhs_row _ _
    | ⟨1, _⟩ => exact (lhs_pos _ _).trans hk)
  have er : dot_S4096x64_S64x256_S4096x256_1_0_0_1_n_n.rhsIdx (ix2 p o) ((contrEquiv1 dot_S4096x64_S64x256_S4096x256_1_0_0_1_n_n 64 rfl rfl).symm k) = ix2 k o := funext fun a => Fin.ext (by
    match a with
    | ⟨0, _⟩ => exact (rhs_pos _ _).trans hk
    | ⟨1, _⟩ => exact rhs_col _ _)
  rw [el, er]

/-! ## The entrywise operations and the broadcast rows -/

theorem rsqrt_apply {s : Shape} {φ : FTy} (a : FVec Ideal s φ) (i : s.Idx) : rsqrt a i = Ideal.rsqrt (a i) := rfl

/-- A per-channel vector, reshaped to one row and broadcast down the rows, reads at `(p, o)` its entry `o`. -/
theorem row_apply {α : Type} (u : S256.Idx → α) (h1 : S256.ShapeCasts S1x256) (h2 : S1x256.Broadcasts S4096x256)
    (p : Fin 4096) (o : Fin 256) :
    broadcastTo S4096x256 (shapeCast S1x256 u h1) h2 (ix2 p o) = u (ix1 o) := by
  rw [broadcastTo_1b_ab_apply, shapeCast_a_1a_apply]

/-! ## The stored block at an index -/

variable (v0 : Vec Ideal S1x16x256x64 .f32) (v4 : Vec Ideal S64x256 .f32) (v7 v11 v12 v17 v24 : Vec Ideal S256 .f32)

/-- Output pixel `(2h + r1, 2w + r2)` of the block, channel `y 3`. -/
theorem pay_apply (y : S1x32x512x64.Idx) (h : Fin 16) (w : Fin 256) (r1 r2 : Fin 2)
    (hh : (y 1).val = 2 * h.val + r1.val) (hw : (y 2).val = 2 * w.val + r2.val) :
    k0_pay1 (F := Ideal) v0 v4 v7 v11 v12 v17 v24 y
      = pix (fun k => v0 (ix4 (0 : Fin 1) h w k)) v4 v7 v11 v24 v17 v12 (chan r1 r2 (y 3)) := by
  unfold k0_pay1
  refine (patch_apply _ _ _ _ _ y h w r1 r2 hh hw).trans ?_
  unfold pix
  simp only [maximumf_apply, addf_apply, subf_apply, mulf_apply, broadcast_apply, truncf_apply, rsqrt_apply,
    row_apply, mm_apply, rows_apply, Ideal.ofBits_def]

end Cert.Shuffle.Body

end
-- ==== Proof.Blocks.lean ====
/-
  From the blocks the grid points write to the whole result array.

  Grid point t = 16 · B + T (image B, band T of 16 pixel rows) stages rows 16T … 16T + 15 of image B, the whole
  weight and the whole per-channel vectors, and writes back rows 32T … 32T + 31 of image B of the result. What it
  writes is `G` restricted to that block: output row 32T + p comes from pixel row 16T + p / 2, which is row p / 2
  of the staged band, with the same sub-pixel row p mod 2. The 256 blocks tile the result array — row r of image B
  lies in the block of point 16 · B + r / 32 — so the array ends holding `G` of the arguments.
-/
import proofs.«127152_j15642270892756_1_alg».proof.Proof.Gen.KernelIdeal.Value
import proofs.«127152_j15642270892756_1_alg».proof.Proof.BodyPixel
import Idealize.ShloMosaic.Lib.Pipeline.Value

noncomputable section

namespace Cert.Shuffle.Kernel

open Cert.KernelIdeal Cert.KernelIdeal.Gen
open Idealize.ShloMosaic Idealize.ShloMosaic.TcCoe Idealize.SL.Sem Idealize.ShloMosaic.ValueIdx Cert.Shuffle
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The block index maps over the grid: the pixel window and the result window move together, image by image and
    band by band; every other window stays at its one block. -/
theorem idx_facts : ∀ t : Fin cfg0.N,
    win0_7.index t (0 : Fin 4) = t.val / 16 ∧ win0_7.index t (1 : Fin 4) = t.val % 16
    ∧ win0_7.index t (2 : Fin 4) = 0 ∧ win0_7.index t (3 : Fin 4) = 0
    ∧ win0_0.index t (0 : Fin 4) = t.val / 16 ∧ win0_0.index t (1 : Fin 4) = t.val % 16
    ∧ win0_0.index t (2 : Fin 4) = 0 ∧ win0_0.index t (3 : Fin 4) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (0 : Fin 1) = 0 ∧ win0_6.index t (0 : Fin 1) = 0 :=
  (by decide +kernel : ∀ t : Fin grid0.N, _)

/-! ## The staged blocks as parts of the argument arrays -/

/-- Pixel `(h, w)` of the band staged at point `t` is pixel `(16 T + h, w)` of image `B`. -/
theorem pixels_apply (c : Dev nD) (t : Fin cfg0.N) (h : Fin 16) (w : Fin 256) (k : Fin 64)
    (j : S16x256x256x64.Idx) (hj0 : (j 0).val = t.val / 16) (hj1 : (j 1).val = (t.val % 16) * 16 + h.val)
    (hj2 : (j 2).val = w.val) (hj3 : (j 3).val = k.val) :
    (iblk m c 0 t : Vec Ideal S1x16x256x64 .f32) (ix4 (0 : Fin 1) h w k) = (m ((c : Thread nD τ).loc main_arg0) : FVec Ideal S16x256x256x64 .f32) j := by
  obtain ⟨-, -, -, -, e0, e1, e2, e3, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 4) * 1 + 1 * 0 = (j 0).val; rw [e0, hj0]; omega
  | ⟨1, _⟩ => show win0_0.index t (1 : Fin 4) * 16 + 1 * h.val = (j 1).val; rw [e1, hj1]; omega
  | ⟨2, _⟩ => show win0_0.index t (2 : Fin 4) * 256 + 1 * w.val = (j 2).val; rw [e2, hj2]; omega
  | ⟨3, _⟩ => show win0_0.index t (3 : Fin 4) * 64 + 1 * k.val = (j 3).val; rw [e3, hj3]; omega

/-- The weight is staged whole. -/
theorem weight_eq (c : Dev nD) (t : Fin cfg0.N) :
    (iblk m c 1 t : Vec Ideal S64x256 .f32) = (m ((c : Thread nD τ).loc main_arg1) : FVec Ideal S64x256 .f32) := by
  obtain ⟨-, -, -, -, -, -, -, -, e0, e1, -⟩ := idx_facts t
  funext j
  unfold iblk
  rw [View.read_apply]
  show V m c main_arg1 _ = m (c.tc.loc main_arg1) _
  unfold V
  congr 1
  funext a
  apply Fin.ext
  match a with
  | ⟨0, _⟩ => show win0_1.index t (0 : Fin 2) * 64 + 1 * (j 0).val = (j 0).val; rw [e0]; omega
  | ⟨1, _⟩ => show win0_1.index t (1 : Fin 2) * 256 + 1 * (j 1).val = (j 1).val; rw [e1]; omega

/-- Each per-channel vector is staged whole. -/
theorem bias_eq (c : Dev nD) (t : Fin cfg0.N) :
    (iblk m c 2 t : Vec Ideal S256 .f32) = (m ((c : Thread nD τ).loc main_arg2) : FVec Ideal S256 .f32) := by
  obtain ⟨-, -, -, -, -, -, -, -, -, -, e, -⟩ := idx_facts t
  funext j
  unfold iblk
  rw [View.read_apply]
  show V m c main_arg2 _ = m (c.tc.loc main_arg2) _
  unfold V
  congr 1
  funext a
  apply Fin.ext
  match a with
  | ⟨0, _⟩ => show win0_2.index t (0 : Fin 1) * 256 + 1 * (j 0).val = (j 0).val; rw [e]; omega

theorem gamma_eq (c : Dev nD) (t : Fin cfg0.N) :
    (iblk m c 3 t : Vec Ideal S256 .f32) = (m ((c : Thread nD τ).loc main_arg3) : FVec Ideal S256 .f32) := by
  obtain ⟨-, -, -, -, -, -, -, -, -, -, -, e, -⟩ := idx_facts t
  funext j
  unfold iblk
  rw [View.read_apply]
  show V m c main_arg3 _ = m (c.tc.loc main_arg3) _
  unfold V
  congr 1
  funext a
  apply Fin.ext
  match a with
  | ⟨0, _⟩ => show win0_3.index t (0 : Fin 1) * 256 + 1 * (j 0).val = (j 0).val; rw [e]; omega

theorem beta_eq (c : Dev nD) (t : Fin cfg0.N) :
    (iblk m c 4 t : Vec Ideal S256 .f32) = (m ((c : Thread nD τ).loc main_arg4) : FVec Ideal S256 .f32) := by
  obtain ⟨-, -, -, -, -, -, -, -, -, -, -, -, e, -⟩ := idx_facts t
  funext j
  unfold iblk
  rw [View.read_apply]
  show V m c main_arg4 _ = m (c.tc.loc main_arg4) _
  unfold V
  congr 1
  funext a
  apply Fin.ext
  match a with
  | ⟨0, _⟩ => show win0_4.index t (0 : Fin 1) * 256 + 1 * (j 0).val = (j 0).val; rw [e]; omega

theorem mean_eq (c : Dev nD) (t : Fin cfg0.N) :
    (iblk m c 5 t : Vec Ideal S256 .f32) = (m ((c : Thread nD τ).loc main_arg5) : FVec Ideal S256 .f32) := by
  obtain ⟨-, -, -, -, -, -, -, -, -, -, -, -, -, e, -⟩ := idx_facts t
  funext j
  unfold iblk
  rw [View.read_apply]
  show V m c main_arg5 _ = m (c.tc.loc main_arg5) _
  unfold V
  congr 1
  funext a
  apply Fin.ext
  match a with
  | ⟨0, _⟩ => show win0_5.index t (0 : Fin 1) * 256 + 1 * (j 0).val = (j 0).val; rw [e]; omega

theorem var_eq (c : Dev nD) (t : Fin cfg0.N) :
    (iblk m c 6 t : Vec Ideal S256 .f32) = (m ((c : Thread nD τ).loc main_arg6) : FVec Ideal S256 .f32) := by
  obtain ⟨-, -, -, -, -, -, -, -, -, -, -, -, -, -, e⟩ := idx_facts t
  funext j
  unfold iblk
  rw [View.read_apply]
  show V m c main_arg6 _ = m (c.tc.loc main_arg6) _
  unfold V
  congr 1
  funext a
  apply Fin.ext
  match a with
  | ⟨0, _⟩ => show win0_6.index t (0 : Fin 1) * 256 + 1 * (j 0).val = (j 0).val; rw [e]; omega

/-! ## What a point writes back -/

theorem pix_congr {xs xs' : Fin 64 → EReal} {wt wt' : FVec Ideal ⟨2, ![64, 256]⟩ .f32}
    {b b' g g' be be' mu mu' va va' : FVec Ideal ⟨1, ![256]⟩ .f32} {o o' : Fin 256}
    (hxs : xs = xs') (hwt : wt = wt') (hb : b = b') (hg : g = g') (hbe : be = be') (hmu : mu = mu') (hva : va = va')
    (ho : o = o') : pix xs wt b g be mu va o = pix xs' wt' b' g' be' mu' va' o' := by
  subst hxs hwt hb hg hbe hmu hva ho
  rfl

/-- Point `t` writes back block `t` of `G` of the argument arrays. -/
theorem flushed_eq (c : Dev nD) (t : Fin cfg0.N) :
    (dats m 0 c).flushed 7 t = ((cfg0.win 7).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Cert.KernelIdeal.Value.flushed7]
  unfold out0_7
  rw [View.canon_unit_zero hz4]
  simp only [View.ld_unit_zero (S := S1x16x256x64) hz4, View.ld_unit_zero (S := S64x256) hz2, View.ld_unit_zero (S := S256) hz1]
  obtain ⟨e0, e1, e2, e3, -⟩ := idx_facts t
  funext y
  have hy0 : (y 0).val < 1 := (y 0).isLt
  have hy1 : (y 1).val < 32 := (y 1).isLt
  have hy2 : (y 2).val < 512 := (y 2).isLt
  have hy3 : (y 3).val < 64 := (y 3).isLt
  have ht : t.val < 256 := lt_of_lt_of_eq t.isLt N_0
  show k0_pay1 (iblk m c 0 t) (iblk m c 1 t) (iblk m c 2 t) (iblk m c 3 t) (iblk m c 6 t) (iblk m c 5 t) (iblk m c 4 t) y
    = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (((cfg0.win 7).blk t).view.emb y)
  have i0 : ((((cfg0.win 7).blk t).view.emb y) 0).val = win0_7.index t (0 : Fin 4) * 1 + 1 * (y 0).val := rfl
  have i1 : ((((cfg0.win 7).blk t).view.emb y) 1).val = win0_7.index t (1 : Fin 4) * 32 + 1 * (y 1).val := rfl
  have i2 : ((((cfg0.win 7).blk t).view.emb y) 2).val = win0_7.index t (2 : Fin 4) * 512 + 1 * (y 2).val := rfl
  have i3 : ((((cfg0.win 7).blk t).view.emb y) 3).val = win0_7.index t (3 : Fin 4) * 64 + 1 * (y 3).val := rfl
  rw [e0] at i0; rw [e1] at i1; rw [e2] at i2; rw [e3] at i3
  refine (Body.pay_apply _ _ _ _ _ _ _ y ⟨(y 1).val / 2, by omega⟩ ⟨(y 2).val / 2, by omega⟩ ⟨(y 1).val % 2, by omega⟩
    ⟨(y 2).val % 2, by omega⟩ (by show (y 1).val = 2 * ((y 1).val / 2) + (y 1).val % 2; omega)
    (by show (y 2).val = 2 * ((y 2).val / 2) + (y 2).val % 2; omega)).trans ?_
  unfold G
  refine pix_congr (funext fun k => ?_) (weight_eq m c t) (bias_eq m c t) (gamma_eq m c t) (beta_eq m c t)
    (mean_eq m c t) (var_eq m c t) (Fin.ext ?_)
  · refine pixels_apply m c t _ _ k _ ?_ ?_ ?_ ?_
    · show ((((cfg0.win 7).blk t).view.emb y) 0).val = t.val / 16
      omega
    · show (((((cfg0.win 7).blk t).view.emb y) 1).val) / 2 = (t.val % 16) * 16 + (y 1).val / 2
      omega
    · show (((((cfg0.win 7).blk t).view.emb y) 2).val) / 2 = (y 2).val / 2
      omega
    · rfl
  · show (y 1).val % 2 * 128 + (y 2).val % 2 * 64 + (y 3).val
      = (((((cfg0.win 7).blk t).view.emb y) 1).val) % 2 * 128 + (((((cfg0.win 7).blk t).view.emb y) 2).val) % 2 * 64
        + ((((cfg0.win 7).blk t).view.emb y) 3).val
    omega

/-! ## The blocks tile the result -/

/-- An index is in point `t`'s block iff each coordinate is in the block's range on its axis. -/
theorem mem_blk (t : Fin cfg0.N) (i : S16x512x512x64.Idx) :
    i ∈ ((cfg0.win 7).blk t).view.set ↔ ∀ a : Fin 4, win0_7.index t a * S1x32x512x64.size a ≤ (i a).val
      ∧ (i a).val < win0_7.index t a * S1x32x512x64.size a + S1x32x512x64.size a := by
  show i ∈ ((View.whole main_v0).slice (win0_7.rect t)).set ↔ _
  rw [View.set_slice_whole, Rect.mem_set_unit]
  exact Iff.rfl

/-- Row `r` of image `B` lies in the block of point `16 B + r / 32`. -/
theorem cover (i : S16x512x512x64.Idx) :
    ∃ t : Fin cfg0.N, (cfg0.win 7).flush t = true ∧ i ∈ ((cfg0.win 7).blk t).view.set := by
  have hi0 : (i 0).val < 16 := (i 0).isLt
  have hi1 : (i 1).val < 512 := (i 1).isLt
  have hi2 : (i 2).val < 512 := (i 2).isLt
  have hi3 : (i 3).val < 64 := (i 3).isLt
  have hN : cfg0.N = 256 := N_0
  obtain ⟨t, ht⟩ : ∃ t : Fin cfg0.N, t.val = (i 0).val * 16 + (i 1).val / 32 :=
    ⟨⟨(i 0).val * 16 + (i 1).val / 32, lt_of_lt_of_eq (by omega) hN.symm⟩, rfl⟩
  obtain ⟨e0, e1, e2, e3, -⟩ := idx_facts t
  refine ⟨t, flush0_7 t, ?_⟩
  rw [mem_blk]
  intro a
  match a with
  | ⟨0, _⟩ =>
    show win0_7.index t (0 : Fin 4) * 1 ≤ (i 0).val ∧ (i 0).val < win0_7.index t (0 : Fin 4) * 1 + 1
    rw [e0]; omega
  | ⟨1, _⟩ =>
    show win0_7.index t (1 : Fin 4) * 32 ≤ (i 1).val ∧ (i 1).val < win0_7.index t (1 : Fin 4) * 32 + 32
    rw [e1]; omega
  | ⟨2, _⟩ =>
    show win0_7.index t (2 : Fin 4) * 512 ≤ (i 2).val ∧ (i 2).val < win0_7.index t (2 : Fin 4) * 512 + 512
    rw [e2]; omega
  | ⟨3, _⟩ =>
    show win0_7.index t (3 : Fin 4) * 64 ≤ (i 3).val ∧ (i 3).val < win0_7.index t (3 : Fin 4) * 64 + 64
    rw [e3]; omega

/-- The result array after the run is `G` of the argument arrays. -/
theorem final (c : Dev nD) : (dats m 0 c).arrAt 7 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed_eq m c t) cover

/-- The kernel's run: the result array ends at `G` of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.Shuffle.Kernel

end
-- ==== Proof.RefPixel.lean ====
/-
  The reference program computes `G`.

  Its activation array — the matrix product over the 64 input channels, the bias, the normalisation and the clamp,
  each a whole-array operation with the per-channel vectors broadcast along the last axis — is `pix` at every pixel
  and channel (`act_apply`): the operations are the same ones in the same order, so after the broadcasts are read at
  an index the two sides are one term. Its final reshape–transpose–reshape is the depth-to-space re-arrangement
  (`result_eq`).
-/
import proofs.«127152_j15642270892756_1_alg».proof.Proof.Gen.ReferenceIdeal.Read
import proofs.«127152_j15642270892756_1_alg».proof.Proof.Spec
import proofs.«127152_j15642270892756_1_alg».proof.Proof.Layout

noncomputable section

namespace Cert.Shuffle.Ref

open Cert.ReferenceIdeal Cert.ReferenceIdeal.Gen Cert.ReferenceIdeal.Read
open Idealize.ShloMosaic Idealize.ShloMosaic.ValueIdx Cert.Shuffle

variable (x0 : FVec Ideal S16x256x256x64 .f32) (x1 : FVec Ideal S64x256 .f32) (x2 x3 x4 x5 x6 : FVec Ideal S256 .f32)

/-- The activation at pixel `(j 0, j 1, j 2)`, channel `j 3`. -/
theorem act_apply (j : S16x256x256x256.Idx) :
    val_main_v17 (F := Ideal) x0 x1 x2 x3 x4 x5 x6 j
      = pix (fun k => x0 (ix4 (j 0) (j 1) (j 2) k)) x1 x2 x3 x4 x5 x6 (j 3) := by
  have el : ∀ k : Fin 64, lidx_main_v0 j k = ix4 (j 0) (j 1) (j 2) k := fun k => funext fun a => Fin.ext (by
    match a with | ⟨0, _⟩ => rfl | ⟨1, _⟩ => rfl | ⟨2, _⟩ => rfl | ⟨3, _⟩ => rfl)
  have er : ∀ k : Fin 64, ridx_main_v0 j k = ix2 k (j 3) := fun k => funext fun a => Fin.ext (by
    match a with | ⟨0, _⟩ => rfl | ⟨1, _⟩ => rfl)
  have e2 : idx_main_v1 (idx_main_v2 j) = ix1 (j 3) := funext fun a => Fin.ext (by match a with | ⟨0, _⟩ => rfl)
  have e9 : idx_main_v8 (idx_main_v9 j) = ix1 (j 3) := funext fun a => Fin.ext (by match a with | ⟨0, _⟩ => rfl)
  have e12 : idx_main_v11 (idx_main_v12 j) = ix1 (j 3) := funext fun a => Fin.ext (by match a with | ⟨0, _⟩ => rfl)
  have e15 : idx_main_v14 (idx_main_v15 j) = ix1 (j 3) := funext fun a => Fin.ext (by match a with | ⟨0, _⟩ => rfl)
  rw [val_main_v17_apply, val_main_v16_apply, val_main_v13_apply, val_main_v10_apply, val_main_v3_apply,
    val_main_v0_apply, val_main_v2_apply, val_main_v1_apply, val_main_v9_apply, val_main_v8_apply,
    val_main_v12_apply, val_main_v11_apply, val_main_v7_apply, val_main_v6_apply, val_main_v5_apply,
    val_main_v4_apply, val_main_cst_apply, val_main_v15_apply, val_main_v14_apply, val_main_call0_v0_apply,
    val_main_call0_cst_apply]
  simp only [el, er, e2, e9, e12, e15, Ideal.ofBits_def, Ideal.addf_def, Ideal.subf_def, Ideal.mulf_def,
    Ideal.maximumf_def, Ideal.hostUnary_rsqrt_def]
  rfl

/-- The reference's result array is `G` of its arguments. -/
theorem result_eq : val_main_v20 (F := Ideal) x0 x1 x2 x3 x4 x5 x6 = G x0 x1 x2 x3 x4 x5 x6 := by
  funext i
  unfold val_main_v20 val_main_v19 val_main_v18
  refine (depth_to_space_apply _ _ _ _ i (half (i 1)) (half (i 2)) (par (i 1)) (par (i 2))
    (half_par (i 1)) (half_par (i 2))).trans ?_
  exact act_apply x0 x1 x2 x3 x4 x5 x6 _

end Cert.Shuffle.Ref

end
-- ==== Proof.lean ====
/-
  A fused sub-pixel convolution against its plain reference, over the extended reals.

  Both programs compute, for every image, a 1×1 convolution of the 64 input channels into 256 (a matrix product
  with the weight), add the bias, normalise with fixed statistics (subtract the mean, multiply by
  gamma · (variance + ε)^(-1/2), add beta), clamp below at zero, and spread the 256 channels of each pixel over a
  2 × 2 patch of output pixels with 64 channels each. The kernel does this band by band — 16 pixel rows of one
  image at a time, as one [4096, 64] × [64, 256] product — and re-arranges each band's result locally; the
  reference does it on the whole array. At the ideal instance the kernel's narrowing of the product's operands is
  the identity, the product into a zero accumulator and the host's contraction are the same sum over the 64 input
  channels, and the remaining operations are the same ones in the same order with the same two literals (ε and 0):
  so both results are one function `G` of the arguments (Proof/Spec.lean), index by index, and no law of
  arithmetic — hence no use of the inputs' finiteness — is needed.
  Proof/Layout.lean reads the three re-arrangements at an index; Proof/BodyPixel.lean the kernel body's stored
  block; Proof/Blocks.lean carries the blocks to the whole array; Proof/RefPixel.lean reads the reference. The
  three frames are the programs' runs with the results forgotten, and the idealization rewrote nothing.
-/
import proofs.«127152_j15642270892756_1_alg».proof.Defs
import proofs.«127152_j15642270892756_1_alg».proof.Proof.Gen.Kernel
import proofs.«127152_j15642270892756_1_alg».proof.Proof.Gen.Kernel.Frame
import proofs.«127152_j15642270892756_1_alg».proof.Proof.Gen.KernelIdeal
import proofs.«127152_j15642270892756_1_alg».proof.Proof.Gen.KernelIdeal.Frame
import proofs.«127152_j15642270892756_1_alg».proof.Proof.Gen.KernelIdeal.Value
import proofs.«127152_j15642270892756_1_alg».proof.Proof.Gen.ReferenceIdeal
import proofs.«127152_j15642270892756_1_alg».proof.Proof.Gen.ReferenceIdeal.Run
import proofs.«127152_j15642270892756_1_alg».proof.Proof.Gen.ReferenceIdeal.Read
import proofs.«127152_j15642270892756_1_alg».proof.Proof.Gen.Pre_finite_inputs
import proofs.«127152_j15642270892756_1_alg».proof.Proof.Blocks
import proofs.«127152_j15642270892756_1_alg».proof.Proof.RefPixel
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at `G` of the arguments. -/
theorem algebraic : Cert.algebraic_KernelIdeal_ReferenceIdeal := by
  intro m ρ m' ρ' _ hagree
  refine ⟨fun c => Cert.Shuffle.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), Cert.Shuffle.Kernel.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v20_eq _ _ _ _ _ _ _).trans ?_
  refine (Cert.Shuffle.Ref.result_eq _ _ _ _ _ _ _).trans ?_
  obtain ⟨a0, a1, a2, a3, a4, a5, a6⟩ := hagree c
  rw [a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
